-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128x2 .f32) (main_arg5 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S50000x2 : Shape := ⟨2, ![50000, 2]⟩
abbrev S5000x2 : Shape := ⟨2, ![5000, 2]⟩
abbrev S650000x2 : Shape := ⟨2, ![650000, 2]⟩
abbrev S1x2 : Shape := ⟨2, ![1, 2]⟩

abbrev nBuf : Space → Nat
  | .hbm => 85
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x600000, .i32⟩
  | .hbm, ⟨7, _⟩ => ⟨S600000, .i32⟩
  | .hbm, ⟨8, _⟩ => ⟨S50000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S50000, .i32⟩
  | .hbm, ⟨13, _⟩ => ⟨S650000, .i32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S50000x128, .f32⟩
  | .hbm, ⟨48, _⟩ => ⟨S650000x1, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x128, .f32⟩
  | .hbm, ⟨59, _⟩ => ⟨S650000x128, .f32⟩
  | .hbm, ⟨60, _⟩ => ⟨S_, .f32⟩
  | .hbm, ⟨61, _⟩ => ⟨S50000x128, .f32⟩
  | .hbm, ⟨62, _⟩ => ⟨S650000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x2, .f32⟩
  | .hbm, ⟨67, _⟩ => ⟨S650000x1, .f32⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000x2, .f32⟩
  | .hbm, ⟨77, _⟩ => ⟨S650000x2, .f32⟩
  | .hbm, ⟨78, _⟩ => ⟨S650000x2, .f32⟩
  | .hbm, ⟨79, _⟩ => ⟨S_, .f32⟩
  | .hbm, ⟨80, _⟩ => ⟨S50000x2, .f32⟩
  | .hbm, ⟨81, _⟩ => ⟨S650000x1, .i32⟩
  | .hbm, ⟨82, _⟩ => ⟨S50000x2, .f32⟩
  | .hbm, ⟨83, _⟩ => ⟨S1x2, .f32⟩
  | .hbm, ⟨84, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S650000x1_S650000x2_0_1 : S650000x1.BroadcastsInDim S650000x2 (![0, 1] : Fin 2 → Fin S650000x2.rank)
  bcast_S_S50000x2 : S_.BroadcastsInDim S50000x2 (![] : Fin 0 → Fin S50000x2.rank)
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  shapeCasts_S5000x2_S5000x2 : S5000x2.ShapeCasts S5000x2
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x2_S5000x2_1_0_0_1_n_n_wf : DotDims.WF S5000x128 S128x2 S5000x2 [1] [0] [0] [1] [] []
  gather_S50000x2_S650000x1_S650000x2_1_0_n_n_0_1_12_wf : GatherDims.WF S50000x2 S650000x1 S650000x2 [1] [0] [] [0] [] 1 ![1, 2]
  scatter_S50000x2_S650000x1_S650000x2_1_0_0_1_wf : ScatterDims.WF S50000x2 S650000x1 S650000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S50000x2.size a
  hwx2_2 : ∀ i : grid2.Coords, EltTy.bits .f32 = 32 ∨ (Rect.block (s := S50000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S50000x2.size a
  hwx3_0 : ∀ i : grid3.Coords, EltTy.bits .f32 = 32 ∨ (Rect.block (s := S50000x2) S5000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S50000x2.size a
  hwx3_2 : ∀ i : grid3.Coords, EltTy.bits .f32 = 32 ∨ (Rect.block (s := S50000x2) S5000x2.size (cc3_transform_2 i) (hinb3_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S650000x1_S650000x2_1_0_n_n_0_1_12 : GatherDims S50000x2 S650000x1 S650000x2 where
  offsetDims := [1]
  collapsedSliceDims := [0]
  operandBatchingDims := []
  startIndicesBatchingDims := []
  startIndexMap := [0]
  indexVectorDim := 1
  sliceSizes := ![1, 2]
  wf := gather_S50000x2_S650000x1_S650000x2_1_0_n_n_0_1_12_wf
def scatter_S50000x2_S650000x1_S650000x2_1_0_0_1 : ScatterDims S50000x2 S650000x1 S650000x2 where
  updateWindowDims := [1]
  insertedWindowDims := [0]
  scatterDimsToOperandDims := [0]
  indexVectorDim := 1
  wf := scatter_S50000x2_S650000x1_S650000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x2 : Shape := ⟨2, ![50000, 2]⟩
abbrev S650000x2 : Shape := ⟨2, ![650000, 2]⟩
abbrev S1x2 : Shape := ⟨2, ![1, 2]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x600000, .i32⟩
  | .hbm, ⟨7, _⟩ => ⟨S600000, .i32⟩
  | .hbm, ⟨8, _⟩ => ⟨S50000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S50000, .i32⟩
  | .hbm, ⟨13, _⟩ => ⟨S650000, .i32⟩
  | .hbm, ⟨14, _⟩ => ⟨S_, .f32⟩
  | .hbm, ⟨15, _⟩ => ⟨S650000, .f32⟩
  | .hbm, ⟨16, _⟩ => ⟨S_, .f32⟩
  | .hbm, ⟨17, _⟩ => ⟨S50000, .f32⟩
  | .hbm, ⟨18, _⟩ => ⟨S650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S650000, .i32⟩
  | .hbm, ⟨30, _⟩ => ⟨S650000, .i1⟩
  | .hbm, ⟨31, _⟩ => ⟨S_, .i32⟩
  | .hbm, ⟨32, _⟩ => ⟨S650000, .i32⟩
  | .hbm, ⟨33, _⟩ => ⟨S650000, .i32⟩
  | .hbm, ⟨34, _⟩ => ⟨S650000, .i32⟩
  | .hbm, ⟨35, _⟩ => ⟨S650000x1, .i32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S50000x128, .f32⟩
  | .hbm, ⟨48, _⟩ => ⟨S650000x1, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x128, .f32⟩
  | .hbm, ⟨59, _⟩ => ⟨S650000x128, .f32⟩
  | .hbm, ⟨60, _⟩ => ⟨S_, .f32⟩
  | .hbm, ⟨61, _⟩ => ⟨S50000x128, .f32⟩
  | .hbm, ⟨62, _⟩ => ⟨S650000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x2, .f32⟩
  | .hbm, ⟨71, _⟩ => ⟨S650000x1, .f32⟩
  | .hbm, ⟨72, _⟩ => ⟨S_, .i32⟩
  | .hbm, ⟨73, _⟩ => ⟨S650000, .i32⟩
  | .hbm, ⟨74, _⟩ => ⟨S650000, .i1⟩
  | .hbm, ⟨75, _⟩ => ⟨S_, .i32⟩
  | .hbm, ⟨76, _⟩ => ⟨S650000, .i32⟩
  | .hbm, ⟨77, _⟩ => ⟨S650000, .i32⟩
  | .hbm, ⟨78, _⟩ => ⟨S650000, .i32⟩
  | .hbm, ⟨79, _⟩ => ⟨S650000x1, .i32⟩
  | .hbm, ⟨80, _⟩ => ⟨S650000x2, .f32⟩
  | .hbm, ⟨81, _⟩ => ⟨S650000x2, .f32⟩
  | .hbm, ⟨82, _⟩ => ⟨S650000x2, .f32⟩
  | .hbm, ⟨83, _⟩ => ⟨S_, .f32⟩
  | .hbm, ⟨84, _⟩ => ⟨S50000x2, .f32⟩
  | .hbm, ⟨85, _⟩ => ⟨S650000x1, .i32⟩
  | .hbm, ⟨86, _⟩ => ⟨S50000x2, .f32⟩
  | .hbm, ⟨87, _⟩ => ⟨S1x2, .f32⟩
  | .hbm, ⟨88, _⟩ => ⟨S50000x2, .f32⟩
  | .hbm, ⟨89, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x2_0_1 : S650000x1.BroadcastsInDim S650000x2 (![0, 1] : Fin 2 → Fin S650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x2_S50000x2_1_0_0_1_n_n_wf : DotDims.WF S50000x128 S128x2 S50000x2 [1] [0] [0] [1] [] []
  gather_S50000x2_S650000x1_S650000x2_1_0_n_n_0_1_12_wf : GatherDims.WF S50000x2 S650000x1 S650000x2 [1] [0] [] [0] [] 1 ![1, 2]
  scatter_S50000x2_S650000x1_S650000x2_1_0_0_1_wf : ScatterDims.WF S50000x2 S650000x1 S650000x2 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S650000x1_S650000x2_1_0_n_n_0_1_12 : GatherDims S50000x2 S650000x1 S650000x2 where
  offsetDims := [1]
  collapsedSliceDims := [0]
  operandBatchingDims := []
  startIndicesBatchingDims := []
  startIndexMap := [0]
  indexVectorDim := 1
  sliceSizes := ![1, 2]
  wf := gather_S50000x2_S650000x1_S650000x2_1_0_n_n_0_1_12_wf
def scatter_S50000x2_S650000x1_S650000x2_1_0_0_1 : ScatterDims S50000x2 S650000x1 S650000x2 where
  updateWindowDims := [1]
  insertedWindowDims := [0]
  scatterDimsToOperandDims := [0]
  indexVectorDim := 1
  wf := scatter_S50000x2_S650000x1_S650000x2_1_0_0_1_wf

class Facts : Prop extends Facts₀ where

variable [Facts]
-- ==== Proof.Spec.lean ====
/-
  The function both programs compute, over the extended reals.

  A graph of 50000 nodes and 600000 directed edges, every node also joined to itself: 650000 (source, destination) pairs.
  With deg n the number of pairs whose destination is n, dinv n = deg n ^ (-1/2) where deg n > 0 and 0 elsewhere, and the
  weight of a pair (s, d) the product dinv s · dinv d, one layer sends node features h to
      out n = (sum over the pairs (s, d) with d = n of weight (s, d) · (h · W) s) + b,
  and the network is two such layers with max(·, 0) between them. The sums over pairs, the row look-ups and the weights
  are the same host operations in both programs, so they are kept here as named, unopened functions of their operands
  (`srcOf`, `dstOf`, `normOf`, `agg128`, `agg2`); what differs between the programs is how the dense parts are computed:
  the product with W (`mm`), the bias added to every row (`addRow`) and the clamp at zero (`relu`), stated here index by
  index over any extents.
-/
import proofs.«167627_j28355374088749_1_alg».proof.Proof.Gen.KernelIdeal
import Idealize.ShloMosaic.Lib.ValueIdx
import Idealize.ShloMosaic.PureOps.Ideal.Laws

noncomputable section

namespace Cert.Gcn

open Idealize.ShloMosaic Idealize.ShloMosaic.ValueIdx Cert.KernelIdeal Cert.KernelIdeal.Facts₀ Cert.KernelIdeal.Facts

/-- An array of 32-bit integers / of floats read as extended reals, of the given shape. -/
abbrev I32 (s : Shape) := IVec s 32
abbrev F32 (s : Shape) := FVec Ideal s .f32

/-! ## The dense parts, index by index -/

/-- Rows times columns: entry (p, q) is the sum over k of x p k · w k q. -/
def mm {R K N : ℕ} (x : FVec Ideal ⟨2, ![R, K]⟩ .f32) (w : FVec Ideal ⟨2, ![K, N]⟩ .f32) : FVec Ideal ⟨2, ![R, N]⟩ .f32 :=
  fun i => ∑ k : Fin K, x (ix2 (i 0) k) * w (ix2 k (i 1))

/-- A one-row array added to every row. -/
def addRow {R N : ℕ} (a : FVec Ideal ⟨2, ![R, N]⟩ .f32) (b : FVec Ideal ⟨2, ![1, N]⟩ .f32) : FVec Ideal ⟨2, ![R, N]⟩ .f32 :=
  fun i => a i + b (ix2 (0 : Fin 1) (i 1))

/-- Every entry clamped below at zero. -/
def relu {R N : ℕ} (a : FVec Ideal ⟨2, ![R, N]⟩ .f32) : FVec Ideal ⟨2, ![R, N]⟩ .f32 :=
  fun i => max (a i) (Ideal.ofBits .f32 0x00000000#32)

theorem mm_apply {R K N : ℕ} (x : FVec Ideal ⟨2, ![R, K]⟩ .f32) (w : FVec Ideal ⟨2, ![K, N]⟩ .f32) (p : Fin R) (q : Fin N) :
    mm x w (ix2 p q) = ∑ k : Fin K, x (ix2 p k) * w (ix2 k q) := rfl

theorem addRow_apply {R N : ℕ} (a : FVec Ideal ⟨2, ![R, N]⟩ .f32) (b : FVec Ideal ⟨2, ![1, N]⟩ .f32) (p : Fin R) (q : Fin N) :
    addRow a b (ix2 p q) = a (ix2 p q) + b (ix2 (0 : Fin 1) q) := rfl

theorem relu_apply {R N : ℕ} (a : FVec Ideal ⟨2, ![R, N]⟩ .f32) (p : Fin R) (q : Fin N) :
    relu a (ix2 p q) = max (a (ix2 p q)) (Ideal.ofBits .f32 0x00000000#32) := rfl

/-! ## The graph parts: the host operations both programs apply, as unopened functions -/

/-- The 650000 sources: row 0 of the edge list followed by 0 … 49999. -/
def srcOf (e : I32 S2x600000) : I32 S650000 :=
  concatenate S650000 0 [⟨S600000, shapeCast S600000 (extractStridedSlice S1x600000 ![0, 0] e slices_S2x600000_S1x600000_0_0) shapeCasts_S1x600000_S600000⟩, ⟨S50000, iotaInDim S50000 32 0⟩] concatenates_S600000_S50000_S650000_d0

/-- The 650000 destinations: row 1 of the edge list followed by 0 … 49999. -/
def dstOf (e : I32 S2x600000) : I32 S650000 :=
  concatenate S650000 0 [⟨S600000, shapeCast S600000 (extractStridedSlice S1x600000 ![1, 0] e slices_S2x600000_S1x600000_1_0) shapeCasts_S1x600000_S600000⟩, ⟨S50000, iotaInDim S50000 32 0⟩] concatenates_S600000_S50000_S650000_d0

/-- A look-up index as jnp normalizes it: a negative index counts from the end of the 50000 nodes. -/
def wrap (s : I32 S650000) : I32 S650000 :=
  select (cmpi .slt s (broadcastInDim S650000 ![] bcast_S_S650000 (constantI S_ 32 0#32)))
    (addi s (broadcastInDim S650000 ![] bcast_S_S650000 (constantI S_ 32 50000#32))) s

/-- deg: the number of pairs arriving at each node, as a scatter-add of ones. -/
def degOf (dst : I32 S650000) : F32 S50000 :=
  Host.scatterAdd (F := Ideal) scatter_S50000_S650000x1_S650000_n_0_0_1
    (broadcastInDim S50000 ![] bcast_S_S50000 (constant (F := Ideal) S_ .f32 0x00000000#32))
    (broadcastInDim S650000x1 ![0] bcast_S650000_S650000x1_0 dst)
    (broadcastInDim S650000 ![] bcast_S_S650000 (constant (F := Ideal) S_ .f32 0x3F800000#32))

/-- dinv: deg ^ (-1/2) where deg > 0, zero elsewhere. -/
def dinvOf (deg : F32 S50000) : F32 S50000 :=
  select (cmpf (F := Ideal) .ogt deg (broadcastInDim S50000 ![] bcast_S_S50000 (constant (F := Ideal) S_ .f32 0x00000000#32)))
    (Host.rsqrt (F := Ideal) deg) (broadcastInDim S50000 ![] bcast_S_S50000 (id (constant (F := Ideal) S_ .f32 0x00000000#32)))

/-- A per-node vector looked up at each pair's (normalized) node index. -/
def gatherVec (v : F32 S50000) (s : I32 S650000) : F32 S650000 :=
  Host.gather gather_S50000_S650000x1_S650000_n_0_n_n_0_1_1 v (broadcastInDim S650000x1 ![0] bcast_S650000_S650000x1_0 (wrap s))

/-- The weight of each pair: dinv at its source times dinv at its destination. -/
def normOf (src dst : I32 S650000) : F32 S650000 :=
  mulf (gatherVec (dinvOf (degOf dst)) src) (gatherVec (dinvOf (degOf dst)) dst)

/-- One aggregation over 128 features: each pair's weight times the source's row of h, summed into the destination's row. -/
def agg128 (src dst : I32 S650000) (nrm : F32 S650000) (h : F32 S50000x128) : F32 S50000x128 :=
  Host.scatterAdd (F := Ideal) scatter_S50000x128_S650000x1_S650000x128_1_0_0_1
    (broadcastInDim S50000x128 ![] bcast_S_S50000x128 (constant (F := Ideal) S_ .f32 0x00000000#32))
    (broadcastInDim S650000x1 ![0] bcast_S650000_S650000x1_0 dst)
    (mulf (broadcastInDim S650000x128 ![0, 1] bcast_S650000x1_S650000x128_0_1 (broadcastInDim S650000x1 ![0] bcast_S650000_S650000x1_0 nrm))
      (Host.gather gather_S50000x128_S650000x1_S650000x128_1_0_n_n_0_1_1128 h (broadcastInDim S650000x1 ![0] bcast_S650000_S650000x1_0 (wrap src))))

/-- The same aggregation over 2 features. -/
def agg2 (src dst : I32 S650000) (nrm : F32 S650000) (h : F32 S50000x2) : F32 S50000x2 :=
  Host.scatterAdd (F := Ideal) scatter_S50000x2_S650000x1_S650000x2_1_0_0_1
    (broadcastInDim S50000x2 ![] bcast_S_S50000x2 (constant (F := Ideal) S_ .f32 0x00000000#32))
    (broadcastInDim S650000x1 ![0] bcast_S650000_S650000x1_0 dst)
    (mulf (broadcastInDim S650000x2 ![0, 1] bcast_S650000x1_S650000x2_0_1 (broadcastInDim S650000x1 ![0] bcast_S650000_S650000x1_0 nrm))
      (Host.gather gather_S50000x2_S650000x1_S650000x2_1_0_n_n_0_1_12 h (broadcastInDim S650000x1 ![0] bcast_S650000_S650000x1_0 (wrap src))))

/-! ## The network -/

/-- Two layers: aggregate x · W1, add b1, clamp at zero; aggregate that · W2, add b2. The biases enter as one-row arrays. -/
def gcn (x : F32 S50000x128) (e : I32 S2x600000) (w1 : F32 S128x128) (b1 : F32 S1x128) (w2 : F32 S128x2) (b2 : F32 S1x2) : F32 S50000x2 :=
  addRow (agg2 (srcOf e) (dstOf e) (normOf (srcOf e) (dstOf e))
      (mm (relu (addRow (agg128 (srcOf e) (dstOf e) (normOf (srcOf e) (dstOf e)) (mm x w1)) b1)) w2)) b2

end Cert.Gcn

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.LibDense.lean ====
/-
  The arithmetic the three kernels and the reference share, over the extended reals and over arbitrary extents.
  A dense layer entry: for a row `p` of an `[R, K]` array `x`, a `[K, N]` matrix `w`, a bias `b` of length `N` and an
  `[R, 1]` column of row weights, the entry `(p, q)` is `max (∑ k, x p k · w k q + b q) 0 · col p`. Beside it the two
  row-wise operations: an array times a column of row weights, and an array divided by a column of row normalizers.
  The lemmas read the kernels' vector operations (a matrix product into a zero accumulator, the bias viewed as one row
  and repeated over the rows, a column repeated over the lanes) at one index.
-/
import Idealize.ShloMosaic.Lib.Pipeline.Value
import Idealize.ShloMosaic.Lib.ValueIdx
import Idealize.ShloMosaic.Lib.ValueLayout
import Idealize.ShloMosaic.PureOps.Ideal.Laws
import proofs.«167627_j28355374088749_1_alg».proof.Proof.LibKeepdims

noncomputable section

namespace Cert.Dense

open Idealize.ShloMosaic Idealize.ShloMosaic.ValueIdx

/-- Entry `(p, q)` of the dense layer with relu and row weights. -/
def layerAt {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) : EReal :=
  max ((∑ k : Fin K, x (ix2 p k) * w (ix2 k q)) + b (ix1 q)) (Ideal.ofBits .f32 0x00000000#32) * col (ix2 p (0 : Fin 1))

/-- The dense layer as a whole array. -/
def layer {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) : FVec Ideal ⟨2, ![R, N]⟩ .f32 :=
  fun i => layerAt x w b col (i 0) (i 1)

/-- Every row of `x` times that row's weight. -/
def scaleRows {R N : ℕ} (x : FVec Ideal ⟨2, ![R, N]⟩ .f32) (col : FVec Ideal ⟨2, ![R, 1]⟩ .f32) : FVec Ideal ⟨2, ![R, N]⟩ .f32 :=
  fun i => x i * col (ix2 (i 0) (0 : Fin 1))

/-- Every row of `x` divided by that row's normalizer. -/
def divRows {R N : ℕ} (x : FVec Ideal ⟨2, ![R, N]⟩ .f32) (col : FVec Ideal ⟨2, ![R, 1]⟩ .f32) : FVec Ideal ⟨2, ![R, N]⟩ .f32 :=
  fun i => Ideal.div (x i) (col (ix2 (i 0) (0 : Fin 1)))

theorem layer_apply {R K N : ℕ} (x : FVec Ideal ⟨2, ![R, K]⟩ .f32) (w : FVec Ideal ⟨2, ![K, N]⟩ .f32)
    (b : FVec Ideal ⟨1, ![N]⟩ .f32) (col : FVec Ideal ⟨2, ![R, 1]⟩ .f32) (p : Fin R) (q : Fin N) :
    layer x w b col (ix2 p q) = layerAt x w b col p q := rfl

theorem scaleRows_apply {R N : ℕ} (x : FVec Ideal ⟨2, ![R, N]⟩ .f32) (col : FVec Ideal ⟨2, ![R, 1]⟩ .f32) (p : Fin R) (q : Fin N) :
    scaleRows x col (ix2 p q) = x (ix2 p q) * col (ix2 p (0 : Fin 1)) := rfl

theorem divRows_apply {R N : ℕ} (x : FVec Ideal ⟨2, ![R, N]⟩ .f32) (col : FVec Ideal ⟨2, ![R, 1]⟩ .f32) (p : Fin R) (q : Fin N) :
    divRows x col (ix2 p q) = Ideal.div (x (ix2 p q)) (col (ix2 p (0 : Fin 1))) := rfl

/-- A layer entry depends on row `p` of `x`, on `w`, on `b` and on the weight of row `p` only: two sets of operands that
    agree there give the same entry (a block of rows against the whole array). -/
theorem layerAt_congr {R R' K N : ℕ} (x : FVec Ideal ⟨2, ![R, K]⟩ .f32) (x' : FVec Ideal ⟨2, ![R', K]⟩ .f32)
    (w w' : FVec Ideal ⟨2, ![K, N]⟩ .f32) (b b' : FVec Ideal ⟨1, ![N]⟩ .f32)
    (col : FVec Ideal ⟨2, ![R, 1]⟩ .f32) (col' : FVec Ideal ⟨2, ![R', 1]⟩ .f32) (p : Fin R) (p' : Fin R') (q : Fin N)
    (hx : ∀ k : Fin K, x (ix2 p k) = x' (ix2 p' k)) (hw : w = w') (hb : b = b')
    (hc : col (ix2 p (0 : Fin 1)) = col' (ix2 p' (0 : Fin 1))) :
    layerAt x w b col p q = layerAt x' w' b' col' p' q := by
  subst hw; subst hb
  unfold layerAt
  rw [hc, Finset.sum_congr rfl fun k _ => by rw [hx k]]

/-- A matrix product into a zero accumulator, rows times columns with one contracted axis, read at `(p, q)`: the sum
    over `k` of `x p k · w k q`. The four hypotheses say which operand coordinates the dimension numbers pick. -/
theorem matmul_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    matmul d none x w (constant (F := Ideal) ⟨2, ![R, N]⟩ .f32 0x00000000#32) (ix2 p q) = ∑ k : Fin K, x (ix2 p k) * w (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The dense kernel body's arithmetic at `(p, q)`: the product into a zero accumulator, plus the bias viewed as one row
    and repeated over the rows, clamped below at zero, times the row-weight column repeated over the lanes — a layer
    entry. -/
theorem layer_payload {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (col : FVec Ideal ⟨2, ![R, 1]⟩ .f32) (w : FVec Ideal ⟨2, ![K, N]⟩ .f32)
    (b : FVec Ideal ⟨1, ![N]⟩ .f32)
    (hc1 : (⟨2, ![K, N]⟩ : Shape).ShapeCasts ⟨2, ![K, N]⟩) (hc2 : (⟨1, ![N]⟩ : Shape).ShapeCasts ⟨2, ![1, N]⟩)
    (hb1 : (⟨2, ![1, N]⟩ : Shape).Broadcasts ⟨2, ![R, N]⟩) (hb2 : (⟨2, ![R, 1]⟩ : Shape).Broadcasts ⟨2, ![R, N]⟩)
    (p : Fin R) (q : Fin N) :
    mulf (maximumf (addf (matmul d none x (shapeCast ⟨2, ![K, N]⟩ w hc1) (constant (F := Ideal) ⟨2, ![R, N]⟩ .f32 0x00000000#32))
        (broadcastTo ⟨2, ![R, N]⟩ (shapeCast ⟨2, ![1, N]⟩ b hc2) hb1))
        (broadcast ⟨2, ![R, N]⟩ (Scalar.ofBits (F := Ideal) .f32 0x00000000#32)))
      (broadcastTo ⟨2, ![R, N]⟩ col hb2) (ix2 p q)
    = layerAt x w b col p q := by
  rw [mulf_apply, maximumf_apply, addf_apply, broadcast_apply, matmul_rows d hr hs hl0 hl1 hr0 hr1,
    broadcastTo_1b_ab_apply, shapeCast_a_1a_apply, Cert.Keepdims.broadcastTo_a1_ab_apply, shapeCast_self]
  rfl

/-- An array times a column repeated over the lanes, at `(p, q)`. -/
theorem scale_payload {R N : ℕ} (x : FVec Ideal ⟨2, ![R, N]⟩ .f32) (col : FVec Ideal ⟨2, ![R, 1]⟩ .f32)
    (hb : (⟨2, ![R, 1]⟩ : Shape).Broadcasts ⟨2, ![R, N]⟩) (p : Fin R) (q : Fin N) :
    mulf x (broadcastTo ⟨2, ![R, N]⟩ col hb) (ix2 p q) = x (ix2 p q) * col (ix2 p (0 : Fin 1)) := by
  rw [mulf_apply, Cert.Keepdims.broadcastTo_a1_ab_apply]

/-- An array divided by a column repeated over the lanes, at `(p, q)`. -/
theorem div_payload {R N : ℕ} (x : FVec Ideal ⟨2, ![R, N]⟩ .f32) (col : FVec Ideal ⟨2, ![R, 1]⟩ .f32)
    (hc : (⟨2, ![R, N]⟩ : Shape).ShapeCasts ⟨2, ![R, N]⟩)
    (hb : (⟨2, ![R, 1]⟩ : Shape).Broadcasts ⟨2, ![R, N]⟩) (p : Fin R) (q : Fin N) :
    divf (shapeCast ⟨2, ![R, N]⟩ x hc) (broadcastTo ⟨2, ![R, N]⟩ col hb) (ix2 p q)
      = Ideal.div (x (ix2 p q)) (col (ix2 p (0 : Fin 1))) := by
  rw [divf_apply, Cert.Keepdims.broadcastTo_a1_ab_apply, shapeCast_self]

end Cert.Dense

end
-- ==== Proof.LibHostDense.lean ====
/-
  Host-side forms of a dense layer's parts, read at one index, over the extended reals and over arbitrary extents:
  the host's dot_general of an [R, K] array with a [K, N] array (one contracted axis) at (p, q) is the sum over k of
  x p k · w k q; a length-N vector viewed as a [1, N] row and repeated down R rows reads, at (p, q), the vector at q;
  and a maximum with the zero constant spread over the whole array reads, at an index, max (x i) 0.
-/
import Idealize.ShloMosaic.Lib.Pipeline.Value
import Idealize.ShloMosaic.Lib.ValueIdx
import Idealize.ShloMosaic.PureOps.Ideal.Laws
import proofs.«167627_j28355374088749_1_alg».proof.Proof.LibDense

noncomputable section

namespace Cert.HostDense

open Idealize.ShloMosaic Idealize.ShloMosaic.ValueIdx

/-- The host's dot_general, rows times columns with one contracted axis, read at (p, q): the sum over k of
    x p k · w k q. The four hypotheses say which operand coordinates the dimension numbers pick. Over the extended reals
    it is the same sum as the vector unit's product into a zero accumulator. -/
theorem dotGeneral_rows {R K N : ℕ} (d : DotDims ⟨2, ![R, K]⟩ ⟨2, ![K, N]⟩ ⟨2, ![R, N]⟩)
    (hr : d.contr.rank = 1) (hs : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![K, N]⟩ .f32) (p : Fin R) (q : Fin N) :
    Host.dotGeneral (F := Ideal) d none x w (ix2 p q) = ∑ k : Fin K, x (ix2 p k) * w (ix2 k q) := by
  simp only [Host.dotGeneral]
  rw [Ideal.dotGeneral_apply, ← Ideal.matmul_constant_zero_apply d none x w (ix2 p q)]
  exact Cert.Dense.matmul_rows d hr hs hl0 hl1 hr0 hr1 x w p q

variable {α : Type}

/-- A length-N vector placed along axis 1 of a [1, N] row, the row then repeated down R rows: at (p, q) the vector at q. -/
theorem rowOfVector_apply {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (p : Fin R) (q : Fin N) :
    broadcastInDim ⟨2, ![R, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The maximum with the zero constant spread over the whole array, at an index. -/
theorem maxZero_apply {s : Shape} (x : FVec Ideal s .f32) (h : (⟨0, ![]⟩ : Shape).BroadcastsInDim s (![] : Fin 0 → Fin s.rank)) (i : s.Idx) :
    maximumf x (broadcastInDim s ![] h (constant (F := Ideal) ⟨0, ![]⟩ .f32 0x00000000#32)) i
      = max (x i) (Ideal.ofBits .f32 0x00000000#32) := by
  rw [maximumf_apply, broadcastInDim_apply ![] h _ i ix0 (fun a => a.elim0), constant_apply]

end Cert.HostDense

end
-- ==== Proof.RefValue.lean ====
/-
  The reference program's result is the network function.

  The reference's run leaves its result at the composition of its host operations on the launch contents of the six
  arguments. The graph parts of that composition are, operation for operation, the named chains of the specification
  (the same sources, destinations, pair weights and aggregations). The dense parts are the host's own spellings:
  a dot_general, which over the extended reals reads at (p, q) as the sum over k of x p k · w k q; the bias placed along
  axis 1 of a one-row array and repeated down the rows, which adds b q to entry (p, q) — the same as adding the bias
  viewed as one row —; and a maximum with zero spread over the array.
-/
import proofs.«167627_j28355374088749_1_alg».proof.Proof.RefRun
import proofs.«167627_j28355374088749_1_alg».proof.Proof.Spec
import proofs.«167627_j28355374088749_1_alg».proof.Proof.LibHostDense
import Idealize.ShloMosaic.Lib.ValueLayout

noncomputable section

namespace Cert.ReferenceIdeal.Hand

open Idealize.ShloMosaic Idealize.ShloMosaic.TcCoe Idealize.SL.Sem Idealize.ShloMosaic.ValueIdx
open Cert.Gcn

open Cert.ReferenceIdeal in
/-- The reference's result as its dense host operations over the named graph chains. -/
def refTerm (x : F32 Cert.KernelIdeal.S50000x128) (e : I32 Cert.KernelIdeal.S2x600000) (w1 : F32 Cert.KernelIdeal.S128x128) (b1 : F32 Cert.KernelIdeal.S128)
    (w2 : F32 Cert.KernelIdeal.S128x2) (b2 : F32 Cert.KernelIdeal.S2) : F32 Cert.KernelIdeal.S50000x2 :=
  addf (agg2 (srcOf e) (dstOf e) (normOf (srcOf e) (dstOf e))
      (Host.dotGeneral (F := Ideal) dot_S50000x128_S128x2_S50000x2_1_0_0_1_n_n none
        (maximumf (addf (agg128 (srcOf e) (dstOf e) (normOf (srcOf e) (dstOf e))
            (Host.dotGeneral (F := Ideal) dot_S50000x128_S128x128_S50000x128_1_0_0_1_n_n none x w1))
          (broadcastInDim S50000x128 ![0, 1] Facts₀.bcast_S1x128_S50000x128_0_1 (broadcastInDim S1x128 ![1] Facts₀.bcast_S128_S1x128_1 b1)))
          (broadcastInDim S50000x128 ![] Facts₀.bcast_S_S50000x128 (constant (F := Ideal) S_ .f32 0x00000000#32))) w2))
    (broadcastInDim S50000x2 ![0, 1] Facts₀.bcast_S1x2_S50000x2_0_1 (broadcastInDim S1x2 ![1] Facts₀.bcast_S2_S1x2_1 b2))

section
variable (m : (ℓ : Loc Cert.ReferenceIdeal.nD Cert.ReferenceIdeal.τ Cert.ReferenceIdeal.sig) → Buf (Elt Ideal) ℓ) (c : Dev Cert.ReferenceIdeal.nD)

open Cert.ReferenceIdeal in
set_option maxHeartbeats 4000000 in
/-- The run's composed term is that expression of the six arguments: the same operations, grouped under their names. -/
theorem res_eq_refTerm : Cert.ReferenceIdeal.ValueP.res_main_v65 (F := Ideal) m c
    = refTerm (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Cert.ReferenceIdeal.ValueP.res_main_v65 refTerm agg2 agg128 normOf gatherVec dinvOf degOf wrap srcOf dstOf
  rfl
end

/-- The first layer's dot_general is the product of rows with columns. -/
theorem dot1_eq (x : F32 Cert.KernelIdeal.S50000x128) (w : F32 Cert.KernelIdeal.S128x128) :
    Host.dotGeneral (F := Ideal) Cert.ReferenceIdeal.dot_S50000x128_S128x128_S50000x128_1_0_0_1_n_n none x w = mm x w := by
  funext i
  obtain ⟨p, q, rfl⟩ : ∃ (p : Fin 50000) (q : Fin 128), i = ix2 p q := ⟨i 0, i 1, eq_ix2 i⟩
  exact Cert.HostDense.dotGeneral_rows _ rfl rfl (fun _ _ => rfl) (fun _ _ => rfl) (fun _ _ => rfl) (fun _ _ => rfl) x w p q

/-- The second layer's dot_general is the product of rows with columns. -/
theorem dot2_eq (x : F32 Cert.KernelIdeal.S50000x128) (w : F32 Cert.KernelIdeal.S128x2) :
    Host.dotGeneral (F := Ideal) Cert.ReferenceIdeal.dot_S50000x128_S128x2_S50000x2_1_0_0_1_n_n none x w = mm x w := by
  funext i
  obtain ⟨p, q, rfl⟩ : ∃ (p : Fin 50000) (q : Fin 2), i = ix2 p q := ⟨i 0, i 1, eq_ix2 i⟩
  exact Cert.HostDense.dotGeneral_rows _ rfl rfl (fun _ _ => rfl) (fun _ _ => rfl) (fun _ _ => rfl) (fun _ _ => rfl) x w p q

/-- Adding the bias spread over the rows is adding the bias viewed as one row: both add b q to entry (p, q). -/
theorem bias_eq {R N : ℕ} (a : FVec Ideal ⟨2, ![R, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1])
    (hs : (⟨1, ![N]⟩ : Shape).ShapeCasts ⟨2, ![1, N]⟩) :
    addf a (broadcastInDim ⟨2, ![R, N]⟩ ![0, 1] h2 (broadcastInDim ⟨2, ![1, N]⟩ ![1] h1 b)) = addRow a (shapeCast ⟨2, ![1, N]⟩ b hs) := by
  funext i
  obtain ⟨p, q, rfl⟩ : ∃ (p : Fin R) (q : Fin N), i = ix2 p q := ⟨i 0, i 1, eq_ix2 i⟩
  rw [addf_apply, Cert.HostDense.rowOfVector_apply, addRow_apply, shapeCast_a_1a_apply]

/-- The maximum with zero spread over the array is the clamp at zero. -/
theorem relu_eq {R N : ℕ} (a : FVec Ideal ⟨2, ![R, N]⟩ .f32) (h : (⟨0, ![]⟩ : Shape).BroadcastsInDim ⟨2, ![R, N]⟩ (![] : Fin 0 → Fin 2)) :
    maximumf a (broadcastInDim ⟨2, ![R, N]⟩ ![] h (constant (F := Ideal) ⟨0, ![]⟩ .f32 0x00000000#32)) = relu a :=
  funext fun i => Cert.HostDense.maxZero_apply a h i

/-- The reference's expression is the network function of the arguments, the two biases viewed as one-row arrays. -/
theorem refTerm_eq_gcn (x : F32 Cert.KernelIdeal.S50000x128) (e : I32 Cert.KernelIdeal.S2x600000) (w1 : F32 Cert.KernelIdeal.S128x128) (b1 : F32 Cert.KernelIdeal.S128)
    (w2 : F32 Cert.KernelIdeal.S128x2) (b2 : F32 Cert.KernelIdeal.S2) :
    refTerm x e w1 b1 w2 b2
      = gcn x e w1 (shapeCast Cert.KernelIdeal.S1x128 b1 Cert.KernelIdeal.Facts₀.shapeCasts_S128_S1x128) w2
          (shapeCast Cert.KernelIdeal.S1x2 b2 Cert.KernelIdeal.Facts₀.shapeCasts_S2_S1x2) := by
  unfold refTerm gcn
  rw [dot1_eq, bias_eq _ _ _ _ Cert.KernelIdeal.Facts₀.shapeCasts_S128_S1x128, relu_eq, dot2_eq,
    bias_eq _ _ _ _ Cert.KernelIdeal.Facts₀.shapeCasts_S2_S1x2]

end Cert.ReferenceIdeal.Hand

end
-- ==== Proof.KRun.lean ====
/-
  The idealized kernel program's run, with its result named.

  The program is nine segments in order: three stretches of host operations, the first product, a stretch, the first
  bias-and-clamp, the second product, a stretch, the second bias. Every weakly fair execution from a memory with zero
  counters terminates without a fault, and the final state holds, in every buffer that is not local to a kernel region,
  the contents the ninth segment leaves: the fold `W9` of the nine segments over the launch memory. Read at the result
  buffer this names the result; read at an argument it is the argument as launched.
-/
import proofs.«167627_j28355374088749_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment's contents `W9`, the six arguments as launched. -/
theorem run_result : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v62 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Hand

end
-- ==== Proof.Chain.lean ====
/-
  The buffer contents of the idealized kernel program at its segment boundaries, in terms of the launch memory.

  Between the kernel regions the program runs stretches of host operations. Each stretch is a straight-line list of
  array operations, so the contents it leaves in a buffer it writes is a closed expression in the contents it found;
  a buffer it does not write is left as found, and a kernel region changes its own three arrays only. Chaining these
  facts from the launch memory gives: the sources, the destinations and the pair weights the first region finds, the
  aggregated products the second and the last region find, and the two bias rows.
-/
import proofs.«167627_j28355374088749_1_alg».proof.Proof.Gen.KernelIdeal.Frame
import proofs.«167627_j28355374088749_1_alg».proof.Proof.Spec
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen Cert.Gcn

/-- A list of host operations leaves a buffer that none of them writes as it found it: each operation's written
    buffer is compared with the buffer in question. -/
macro "kept_by " h:ident : tactic => `(tactic|
  exact StableHlo.after_of_forall_not_mem _ _ (List.forall_iff_forall_mem.mp (by
    simp only [$h:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## Each stretch of host operations, from arbitrary contents -/

section Stretch

variable (W : Valuation τ sig (Elt Ideal))

/-! The first stretch splits the edge list into its two rows, appends 0 … 49999 to each (every node joined to itself),
    counts the pairs arriving at each node, and prepares the comparison with zero and the inverse square root of the count. -/

set_option maxHeartbeats 1600000 in
theorem s0_v3 : StableHlo.after (hostOps0 (F := Ideal)) W (Proc.devRef .tc main_v3)
    = srcOf (W (Proc.devRef .tc main_arg1)) := by
  after_results_simp
  rfl

set_option maxHeartbeats 1600000 in
theorem s0_v7 : StableHlo.after (hostOps0 (F := Ideal)) W (Proc.devRef .tc main_v7)
    = dstOf (W (Proc.devRef .tc main_arg1)) := by
  after_results_simp
  rfl

set_option maxHeartbeats 1600000 in
theorem s0_v13 : StableHlo.after (hostOps0 (F := Ideal)) W (Proc.devRef .tc main_v13)
    = cmpf (F := Ideal) .ogt (degOf (dstOf (W (Proc.devRef .tc main_arg1)))) (broadcastInDim S50000 ![] Facts₀.bcast_S_S50000 (constant (F := Ideal) S_ .f32 0x00000000#32)) := by
  after_results_simp
  rfl

set_option maxHeartbeats 1600000 in
theorem s0_v14 : StableHlo.after (hostOps0 (F := Ideal)) W (Proc.devRef .tc main_v14)
    = Host.rsqrt (F := Ideal) (degOf (dstOf (W (Proc.devRef .tc main_arg1)))) := by
  after_results_simp
  rfl

set_option maxHeartbeats 1600000 in
theorem s0_cst_2 : StableHlo.after (hostOps0 (F := Ideal)) W (Proc.devRef .tc main_cst_2)
    = constant (F := Ideal) S_ .f32 0x00000000#32 := by
  after_results_simp

theorem s0_keep_arg0 : StableHlo.after (hostOps0 (F := Ideal)) W (Proc.devRef .tc main_arg0) = W (Proc.devRef .tc main_arg0) := by
  kept_by hostOps0
theorem s0_keep_arg2 : StableHlo.after (hostOps0 (F := Ideal)) W (Proc.devRef .tc main_arg2) = W (Proc.devRef .tc main_arg2) := by
  kept_by hostOps0
theorem s0_keep_arg3 : StableHlo.after (hostOps0 (F := Ideal)) W (Proc.devRef .tc main_arg3) = W (Proc.devRef .tc main_arg3) := by
  kept_by hostOps0
theorem s0_keep_arg4 : StableHlo.after (hostOps0 (F := Ideal)) W (Proc.devRef .tc main_arg4) = W (Proc.devRef .tc main_arg4) := by
  kept_by hostOps0
theorem s0_keep_arg5 : StableHlo.after (hostOps0 (F := Ideal)) W (Proc.devRef .tc main_arg5) = W (Proc.devRef .tc main_arg5) := by
  kept_by hostOps0

/-! The second stretch selects, node by node, the inverse square root where the count is positive and zero elsewhere. -/

set_option maxHeartbeats 1600000 in
theorem s01_v15 : StableHlo.after (hostOps0_1 (F := Ideal)) W (Proc.devRef .tc main_v15)
    = select (W (Proc.devRef .tc main_v13)) (W (Proc.devRef .tc main_v14)) (broadcastInDim S50000 ![] Facts₀.bcast_S_S50000 (id (W (Proc.devRef .tc main_cst_2)))) := by
  after_results_simp
  rfl

theorem s01_keep_arg0 : StableHlo.after (hostOps0_1 (F := Ideal)) W (Proc.devRef .tc main_arg0) = W (Proc.devRef .tc main_arg0) := by
  kept_by hostOps0_1
theorem s01_keep_arg2 : StableHlo.after (hostOps0_1 (F := Ideal)) W (Proc.devRef .tc main_arg2) = W (Proc.devRef .tc main_arg2) := by
  kept_by hostOps0_1
theorem s01_keep_arg3 : StableHlo.after (hostOps0_1 (F := Ideal)) W (Proc.devRef .tc main_arg3) = W (Proc.devRef .tc main_arg3) := by
  kept_by hostOps0_1
theorem s01_keep_arg4 : StableHlo.after (hostOps0_1 (F := Ideal)) W (Proc.devRef .tc main_arg4) = W (Proc.devRef .tc main_arg4) := by
  kept_by hostOps0_1
theorem s01_keep_arg5 : StableHlo.after (hostOps0_1 (F := Ideal)) W (Proc.devRef .tc main_arg5) = W (Proc.devRef .tc main_arg5) := by
  kept_by hostOps0_1
theorem s01_keep_v3 : StableHlo.after (hostOps0_1 (F := Ideal)) W (Proc.devRef .tc main_v3) = W (Proc.devRef .tc main_v3) := by
  kept_by hostOps0_1
theorem s01_keep_v7 : StableHlo.after (hostOps0_1 (F := Ideal)) W (Proc.devRef .tc main_v7) = W (Proc.devRef .tc main_v7) := by
  kept_by hostOps0_1

/-! The third stretch looks the per-node factor up at each pair's source and at its destination and multiplies the two. -/

set_option maxHeartbeats 1600000 in
theorem s02_v30 : StableHlo.after (hostOps0_2 (F := Ideal)) W (Proc.devRef .tc main_v30)
    = mulf (gatherVec (W (Proc.devRef .tc main_v15)) (W (Proc.devRef .tc main_v3))) (gatherVec (W (Proc.devRef .tc main_v15)) (W (Proc.devRef .tc main_v7))) := by
  after_results_simp
  rfl

theorem s02_keep_arg0 : StableHlo.after (hostOps0_2 (F := Ideal)) W (Proc.devRef .tc main_arg0) = W (Proc.devRef .tc main_arg0) := by
  kept_by hostOps0_2
theorem s02_keep_arg2 : StableHlo.after (hostOps0_2 (F := Ideal)) W (Proc.devRef .tc main_arg2) = W (Proc.devRef .tc main_arg2) := by
  kept_by hostOps0_2
theorem s02_keep_arg3 : StableHlo.after (hostOps0_2 (F := Ideal)) W (Proc.devRef .tc main_arg3) = W (Proc.devRef .tc main_arg3) := by
  kept_by hostOps0_2
theorem s02_keep_arg4 : StableHlo.after (hostOps0_2 (F := Ideal)) W (Proc.devRef .tc main_arg4) = W (Proc.devRef .tc main_arg4) := by
  kept_by hostOps0_2
theorem s02_keep_arg5 : StableHlo.after (hostOps0_2 (F := Ideal)) W (Proc.devRef .tc main_arg5) = W (Proc.devRef .tc main_arg5) := by
  kept_by hostOps0_2
theorem s02_keep_v3 : StableHlo.after (hostOps0_2 (F := Ideal)) W (Proc.devRef .tc main_v3) = W (Proc.devRef .tc main_v3) := by
  kept_by hostOps0_2
theorem s02_keep_v7 : StableHlo.after (hostOps0_2 (F := Ideal)) W (Proc.devRef .tc main_v7) = W (Proc.devRef .tc main_v7) := by
  kept_by hostOps0_2

/-! The stretch after the first region sums, into each destination's row, the pair's weight times the source's row of
    the 128-column product, and views the first bias as one row. -/

set_option maxHeartbeats 1600000 in
theorem s1_v44 : StableHlo.after (hostOps1 (F := Ideal)) W (Proc.devRef .tc main_v44)
    = agg128 (W (Proc.devRef .tc main_v3)) (W (Proc.devRef .tc main_v7)) (W (Proc.devRef .tc main_v30)) (W (Proc.devRef .tc main_v31)) := by
  after_results_simp
  rfl

set_option maxHeartbeats 1600000 in
theorem s1_v45 : StableHlo.after (hostOps1 (F := Ideal)) W (Proc.devRef .tc main_v45)
    = shapeCast S1x128 (W (Proc.devRef .tc main_arg3)) Facts₀.shapeCasts_S128_S1x128 := by
  after_results_simp
  rfl

theorem s1_keep_arg4 : StableHlo.after (hostOps1 (F := Ideal)) W (Proc.devRef .tc main_arg4) = W (Proc.devRef .tc main_arg4) := by
  kept_by hostOps1
theorem s1_keep_arg5 : StableHlo.after (hostOps1 (F := Ideal)) W (Proc.devRef .tc main_arg5) = W (Proc.devRef .tc main_arg5) := by
  kept_by hostOps1
theorem s1_keep_v3 : StableHlo.after (hostOps1 (F := Ideal)) W (Proc.devRef .tc main_v3) = W (Proc.devRef .tc main_v3) := by
  kept_by hostOps1
theorem s1_keep_v7 : StableHlo.after (hostOps1 (F := Ideal)) W (Proc.devRef .tc main_v7) = W (Proc.devRef .tc main_v7) := by
  kept_by hostOps1
theorem s1_keep_v30 : StableHlo.after (hostOps1 (F := Ideal)) W (Proc.devRef .tc main_v30) = W (Proc.devRef .tc main_v30) := by
  kept_by hostOps1

/-! The stretch after the third region does the same over the 2-column product, and views the second bias as one row. -/

set_option maxHeartbeats 1600000 in
theorem s3_v60 : StableHlo.after (hostOps3 (F := Ideal)) W (Proc.devRef .tc main_v60)
    = agg2 (W (Proc.devRef .tc main_v3)) (W (Proc.devRef .tc main_v7)) (W (Proc.devRef .tc main_v30)) (W (Proc.devRef .tc main_v47)) := by
  after_results_simp
  rfl

set_option maxHeartbeats 1600000 in
theorem s3_v61 : StableHlo.after (hostOps3 (F := Ideal)) W (Proc.devRef .tc main_v61)
    = shapeCast S1x2 (W (Proc.devRef .tc main_arg5)) Facts₀.shapeCasts_S2_S1x2 := by
  after_results_simp
  rfl

end Stretch

/-! ## The fold through the program, from the launch memory -/

variable (m : (ℓ : Loc nD τ sig) → Buf (Elt Ideal) ℓ) (ρ : Dev nD → PrngReg) (c : Dev nD)

/-! Before the first region: the three host stretches in turn. The arguments stay as launched; the sources and the
    destinations are made by the first stretch and kept by the next two; the per-node factor is made by the second
    stretch and the pair weights by the third. -/

theorem W1_v3 : W1 m ρ c (Proc.devRef .tc main_v3) = srcOf (m ((c : Thread nD τ).loc main_arg1)) := by
  exact s0_v3 (W0 m ρ c)
theorem W1_v7 : W1 m ρ c (Proc.devRef .tc main_v7) = dstOf (m ((c : Thread nD τ).loc main_arg1)) := by
  exact s0_v7 (W0 m ρ c)
theorem W1_v13 : W1 m ρ c (Proc.devRef .tc main_v13) = cmpf (F := Ideal) .ogt (degOf (dstOf (m ((c : Thread nD τ).loc main_arg1)))) (broadcastInDim S50000 ![] Facts₀.bcast_S_S50000 (constant (F := Ideal) S_ .f32 0x00000000#32)) := by
  exact s0_v13 (W0 m ρ c)
theorem W1_v14 : W1 m ρ c (Proc.devRef .tc main_v14) = Host.rsqrt (F := Ideal) (degOf (dstOf (m ((c : Thread nD τ).loc main_arg1)))) := by
  exact s0_v14 (W0 m ρ c)
theorem W1_cst_2 : W1 m ρ c (Proc.devRef .tc main_cst_2) = constant (F := Ideal) S_ .f32 0x00000000#32 := by
  exact s0_cst_2 (W0 m ρ c)
theorem W1_arg0 : W1 m ρ c (Proc.devRef .tc main_arg0) = m ((c : Thread nD τ).loc main_arg0) := by
  exact s0_keep_arg0 (W0 m ρ c)
theorem W1_arg2 : W1 m ρ c (Proc.devRef .tc main_arg2) = m ((c : Thread nD τ).loc main_arg2) := by
  exact s0_keep_arg2 (W0 m ρ c)
theorem W1_arg3 : W1 m ρ c (Proc.devRef .tc main_arg3) = m ((c : Thread nD τ).loc main_arg3) := by
  exact s0_keep_arg3 (W0 m ρ c)
theorem W1_arg4 : W1 m ρ c (Proc.devRef .tc main_arg4) = m ((c : Thread nD τ).loc main_arg4) := by
  exact s0_keep_arg4 (W0 m ρ c)
theorem W1_arg5 : W1 m ρ c (Proc.devRef .tc main_arg5) = m ((c : Thread nD τ).loc main_arg5) := by
  exact s0_keep_arg5 (W0 m ρ c)

theorem W2_v15 : W2 m ρ c (Proc.devRef .tc main_v15) = dinvOf (degOf (dstOf (m ((c : Thread nD τ).loc main_arg1)))) := by
  show StableHlo.after hostOps0_1 (W1 m ρ c) (Proc.devRef .tc main_v15) = _
  rw [s01_v15 (W1 m ρ c), W1_v13, W1_v14, W1_cst_2]
  rfl
theorem W2_v3 : W2 m ρ c (Proc.devRef .tc main_v3) = srcOf (m ((c : Thread nD τ).loc main_arg1)) := by
  exact (s01_keep_v3 (W1 m ρ c)).trans (W1_v3 m ρ c)
theorem W2_v7 : W2 m ρ c (Proc.devRef .tc main_v7) = dstOf (m ((c : Thread nD τ).loc main_arg1)) := by
  exact (s01_keep_v7 (W1 m ρ c)).trans (W1_v7 m ρ c)
theorem W2_arg0 : W2 m ρ c (Proc.devRef .tc main_arg0) = m ((c : Thread nD τ).loc main_arg0) := by
  exact (s01_keep_arg0 (W1 m ρ c)).trans (W1_arg0 m ρ c)
theorem W2_arg2 : W2 m ρ c (Proc.devRef .tc main_arg2) = m ((c : Thread nD τ).loc main_arg2) := by
  exact (s01_keep_arg2 (W1 m ρ c)).trans (W1_arg2 m ρ c)
theorem W2_arg3 : W2 m ρ c (Proc.devRef .tc main_arg3) = m ((c : Thread nD τ).loc main_arg3) := by
  exact (s01_keep_arg3 (W1 m ρ c)).trans (W1_arg3 m ρ c)
theorem W2_arg4 : W2 m ρ c (Proc.devRef .tc main_arg4) = m ((c : Thread nD τ).loc main_arg4) := by
  exact (s01_keep_arg4 (W1 m ρ c)).trans (W1_arg4 m ρ c)
theorem W2_arg5 : W2 m ρ c (Proc.devRef .tc main_arg5) = m ((c : Thread nD τ).loc main_arg5) := by
  exact (s01_keep_arg5 (W1 m ρ c)).trans (W1_arg5 m ρ c)

theorem W3_v3 : W3 m ρ c (Proc.devRef .tc main_v3) = srcOf (m ((c : Thread nD τ).loc main_arg1)) := by
  exact (s02_keep_v3 (W2 m ρ c)).trans (W2_v3 m ρ c)
theorem W3_v7 : W3 m ρ c (Proc.devRef .tc main_v7) = dstOf (m ((c : Thread nD τ).loc main_arg1)) := by
  exact (s02_keep_v7 (W2 m ρ c)).trans (W2_v7 m ρ c)
theorem W3_v30 : W3 m ρ c (Proc.devRef .tc main_v30) = normOf (srcOf (m ((c : Thread nD τ).loc main_arg1))) (dstOf (m ((c : Thread nD τ).loc main_arg1))) := by
  show StableHlo.after hostOps0_2 (W2 m ρ c) (Proc.devRef .tc main_v30) = _
  rw [s02_v30 (W2 m ρ c), W2_v15, W2_v3, W2_v7]
  rfl
theorem W3_arg0 : W3 m ρ c (Proc.devRef .tc main_arg0) = m ((c : Thread nD τ).loc main_arg0) := by
  exact (s02_keep_arg0 (W2 m ρ c)).trans (W2_arg0 m ρ c)
theorem W3_arg2 : W3 m ρ c (Proc.devRef .tc main_arg2) = m ((c : Thread nD τ).loc main_arg2) := by
  exact (s02_keep_arg2 (W2 m ρ c)).trans (W2_arg2 m ρ c)
theorem W3_arg3 : W3 m ρ c (Proc.devRef .tc main_arg3) = m ((c : Thread nD τ).loc main_arg3) := by
  exact (s02_keep_arg3 (W2 m ρ c)).trans (W2_arg3 m ρ c)
theorem W3_arg4 : W3 m ρ c (Proc.devRef .tc main_arg4) = m ((c : Thread nD τ).loc main_arg4) := by
  exact (s02_keep_arg4 (W2 m ρ c)).trans (W2_arg4 m ρ c)
theorem W3_arg5 : W3 m ρ c (Proc.devRef .tc main_arg5) = m ((c : Thread nD τ).loc main_arg5) := by
  exact (s02_keep_arg5 (W2 m ρ c)).trans (W2_arg5 m ρ c)

/-! The first region changes the features, the first weights and its product only. -/

theorem W4_v3 : W4 m ρ c (Proc.devRef .tc main_v3) = srcOf (m ((c : Thread nD τ).loc main_arg1)) := by
  exact (W4_of_ne m ρ c main_v3 (by decide)).trans (W3_v3 m ρ c)
theorem W4_v7 : W4 m ρ c (Proc.devRef .tc main_v7) = dstOf (m ((c : Thread nD τ).loc main_arg1)) := by
  exact (W4_of_ne m ρ c main_v7 (by decide)).trans (W3_v7 m ρ c)
theorem W4_v30 : W4 m ρ c (Proc.devRef .tc main_v30) = normOf (srcOf (m ((c : Thread nD τ).loc main_arg1))) (dstOf (m ((c : Thread nD τ).loc main_arg1))) := by
  exact (W4_of_ne m ρ c main_v30 (by decide)).trans (W3_v30 m ρ c)
theorem W4_arg3 : W4 m ρ c (Proc.devRef .tc main_arg3) = m ((c : Thread nD τ).loc main_arg3) := by
  exact (W4_of_ne m ρ c main_arg3 (by decide)).trans (W3_arg3 m ρ c)
theorem W4_arg4 : W4 m ρ c (Proc.devRef .tc main_arg4) = m ((c : Thread nD τ).loc main_arg4) := by
  exact (W4_of_ne m ρ c main_arg4 (by decide)).trans (W3_arg4 m ρ c)
theorem W4_arg5 : W4 m ρ c (Proc.devRef .tc main_arg5) = m ((c : Thread nD τ).loc main_arg5) := by
  exact (W4_of_ne m ρ c main_arg5 (by decide)).trans (W3_arg5 m ρ c)

/-! Before the second region: the first aggregation, over the first region's product, and the first bias as one row. -/

theorem W5_v44 : W5 m ρ c (Proc.devRef .tc main_v44) = agg128 (srcOf (m ((c : Thread nD τ).loc main_arg1))) (dstOf (m ((c : Thread nD τ).loc main_arg1))) (normOf (srcOf (m ((c : Thread nD τ).loc main_arg1))) (dstOf (m ((c : Thread nD τ).loc main_arg1)))) (W4 m ρ c (Proc.devRef .tc main_v31)) := by
  show StableHlo.after hostOps1 (W4 m ρ c) (Proc.devRef .tc main_v44) = _
  rw [s1_v44 (W4 m ρ c), W4_v3, W4_v7, W4_v30]
theorem W5_v45 : W5 m ρ c (Proc.devRef .tc main_v45) = shapeCast S1x128 (m ((c : Thread nD τ).loc main_arg3)) Facts₀.shapeCasts_S128_S1x128 := by
  show StableHlo.after hostOps1 (W4 m ρ c) (Proc.devRef .tc main_v45) = _
  rw [s1_v45 (W4 m ρ c), W4_arg3]
theorem W5_v3 : W5 m ρ c (Proc.devRef .tc main_v3) = srcOf (m ((c : Thread nD τ).loc main_arg1)) := by
  exact (s1_keep_v3 (W4 m ρ c)).trans (W4_v3 m ρ c)
theorem W5_v7 : W5 m ρ c (Proc.devRef .tc main_v7) = dstOf (m ((c : Thread nD τ).loc main_arg1)) := by
  exact (s1_keep_v7 (W4 m ρ c)).trans (W4_v7 m ρ c)
theorem W5_v30 : W5 m ρ c (Proc.devRef .tc main_v30) = normOf (srcOf (m ((c : Thread nD τ).loc main_arg1))) (dstOf (m ((c : Thread nD τ).loc main_arg1))) := by
  exact (s1_keep_v30 (W4 m ρ c)).trans (W4_v30 m ρ c)
theorem W5_arg4 : W5 m ρ c (Proc.devRef .tc main_arg4) = m ((c : Thread nD τ).loc main_arg4) := by
  exact (s1_keep_arg4 (W4 m ρ c)).trans (W4_arg4 m ρ c)
theorem W5_arg5 : W5 m ρ c (Proc.devRef .tc main_arg5) = m ((c : Thread nD τ).loc main_arg5) := by
  exact (s1_keep_arg5 (W4 m ρ c)).trans (W4_arg5 m ρ c)

/-! The second region changes the aggregated product, the bias row and its output only; the third region its input,
    the second weights and its product only. -/

theorem W6_v3 : W6 m ρ c (Proc.devRef .tc main_v3) = srcOf (m ((c : Thread nD τ).loc main_arg1)) := by
  exact (W6_of_ne m ρ c main_v3 (by decide)).trans (W5_v3 m ρ c)
theorem W6_v7 : W6 m ρ c (Proc.devRef .tc main_v7) = dstOf (m ((c : Thread nD τ).loc main_arg1)) := by
  exact (W6_of_ne m ρ c main_v7 (by decide)).trans (W5_v7 m ρ c)
theorem W6_v30 : W6 m ρ c (Proc.devRef .tc main_v30) = normOf (srcOf (m ((c : Thread nD τ).loc main_arg1))) (dstOf (m ((c : Thread nD τ).loc main_arg1))) := by
  exact (W6_of_ne m ρ c main_v30 (by decide)).trans (W5_v30 m ρ c)
theorem W6_arg4 : W6 m ρ c (Proc.devRef .tc main_arg4) = m ((c : Thread nD τ).loc main_arg4) := by
  exact (W6_of_ne m ρ c main_arg4 (by decide)).trans (W5_arg4 m ρ c)
theorem W6_arg5 : W6 m ρ c (Proc.devRef .tc main_arg5) = m ((c : Thread nD τ).loc main_arg5) := by
  exact (W6_of_ne m ρ c main_arg5 (by decide)).trans (W5_arg5 m ρ c)
theorem W7_v3 : W7 m ρ c (Proc.devRef .tc main_v3) = srcOf (m ((c : Thread nD τ).loc main_arg1)) := by
  exact (W7_of_ne m ρ c main_v3 (by decide)).trans (W6_v3 m ρ c)
theorem W7_v7 : W7 m ρ c (Proc.devRef .tc main_v7) = dstOf (m ((c : Thread nD τ).loc main_arg1)) := by
  exact (W7_of_ne m ρ c main_v7 (by decide)).trans (W6_v7 m ρ c)
theorem W7_v30 : W7 m ρ c (Proc.devRef .tc main_v30) = normOf (srcOf (m ((c : Thread nD τ).loc main_arg1))) (dstOf (m ((c : Thread nD τ).loc main_arg1))) := by
  exact (W7_of_ne m ρ c main_v30 (by decide)).trans (W6_v30 m ρ c)
theorem W7_arg5 : W7 m ρ c (Proc.devRef .tc main_arg5) = m ((c : Thread nD τ).loc main_arg5) := by
  exact (W7_of_ne m ρ c main_arg5 (by decide)).trans (W6_arg5 m ρ c)

/-! Before the last region: the second aggregation, over the third region's product, and the second bias as one row. -/

theorem W8_v60 : W8 m ρ c (Proc.devRef .tc main_v60) = agg2 (srcOf (m ((c : Thread nD τ).loc main_arg1))) (dstOf (m ((c : Thread nD τ).loc main_arg1))) (normOf (srcOf (m ((c : Thread nD τ).loc main_arg1))) (dstOf (m ((c : Thread nD τ).loc main_arg1)))) (W7 m ρ c (Proc.devRef .tc main_v47)) := by
  show StableHlo.after hostOps3 (W7 m ρ c) (Proc.devRef .tc main_v60) = _
  rw [s3_v60 (W7 m ρ c), W7_v3, W7_v7, W7_v30]
theorem W8_v61 : W8 m ρ c (Proc.devRef .tc main_v61) = shapeCast S1x2 (m ((c : Thread nD τ).loc main_arg5)) Facts₀.shapeCasts_S2_S1x2 := by
  show StableHlo.after hostOps3 (W7 m ρ c) (Proc.devRef .tc main_v61) = _
  rw [s3_v61 (W7 m ρ c), W7_arg5]

end Cert.KernelIdeal.Hand

end
-- ==== Proof.Region0.lean ====
/-
  The first product: what the array main_v31 holds when region 0 is left, as one function of the arrays the region
  finds at its entry.

  The grid has ten points. Point t stages rows 5000 t … 5000 t + 4999 of the left operand [50000, 128] and the whole right
  operand [128, 128], multiplies them into a zero accumulator (the operands pass through a change of float format, which
  is the identity over the extended reals), and writes the [5000, 128] product back to rows 5000 t … 5000 t + 4999 of the
  result. Entry (p, q) of the block's product only reads row p of the block, that is row 5000 t + p of the whole left
  operand: so what point t writes back is block t of the whole-array product, and the ten blocks tile the result.
-/
import proofs.«167627_j28355374088749_1_alg».proof.Proof.Gen.KernelIdeal.Frame
import proofs.«167627_j28355374088749_1_alg».proof.Proof.Spec
import proofs.«167627_j28355374088749_1_alg».proof.Proof.LibDense
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Gcn

theorem zero_offsets : (![0, 0] : Fin 2 → Nat) = fun _ => 0 := funext fun a => by fin_cases a <;> rfl

/-- The block product at (p, q): the sum over k of the left block's row p times the right operand's column q. -/
theorem product0_apply (x0 : FVec Ideal S5000x128 .f32) (x1 : FVec Ideal S128x128 .f32) (p : Fin 5000) (q : Fin 128) :
    k0_pay1 (F := Ideal) x0 x1 (ix2 p q) = ∑ k : Fin 128, x0 (ix2 p k) * x1 (ix2 k q) := by
  unfold k0_pay1
  exact Cert.Dense.matmul_rows dot_S5000x128_S128x128_S5000x128_1_0_0_1_n_n rfl rfl (fun _ _ => rfl) (fun _ _ => rfl)
    (fun _ _ => rfl) (fun _ _ => rfl) x0 x1 p q

/-- A block's product entry is the whole product's entry, once the block's row is the whole operand's row and the right
    operand's column is the whole right operand's column. -/
theorem product0_block (x0 : FVec Ideal S5000x128 .f32) (x1 : FVec Ideal S128x128 .f32)
    (A : FVec Ideal S50000x128 .f32) (B : FVec Ideal S128x128 .f32) (j : S5000x128.Idx) (i : S50000x128.Idx)
    (hx : ∀ k : Fin 128, x0 (ix2 (j 0) k) = A (ix2 (i 0) k)) (hw : ∀ k : Fin 128, x1 (ix2 k (j 1)) = B (ix2 k (i 1))) :
    k0_pay1 (F := Ideal) x0 x1 j = mm A B i := by
  refine (congrArg (k0_pay1 (F := Ideal) x0 x1) (eq_ix2 j)).trans ?_
  refine (product0_apply x0 x1 (j 0) (j 1)).trans ?_
  refine Eq.trans ?_ (congrArg (mm A B) (eq_ix2 i)).symm
  refine Eq.trans ?_ (mm_apply A B (i 0) (i 1)).symm
  exact Finset.sum_congr rfl fun k _ => congrArg₂ (· * ·) (hx k) (hw k)

variable (V : (c : Dev nD) → (b : Ref sig .tc) → Buf (Elt Ideal) ((c : Thread nD τ).loc b)) (c : Dev nD)

/-- The printed index maps over the grid: the left operand and the result move one block of rows per point, the right
    operand stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1000000 in
/-- What point t writes back is block t of the whole product of the arrays the region finds. -/
theorem flushed0 (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_maps0 t
  funext j
  rw [View.read_apply]
  refine product0_block (iblk0 V c 0 t) (iblk0 V c 1 t) (V c main_arg0) (V c main_arg2)
    ((cfg0.win 2).xinj (grid0.coords t) j) (((cfg0.win 2).blk t).view.emb j) (fun k => ?_) (fun k => ?_)
  · show V c main_arg0 (((cfg0.win 0).blk t).view.emb (ix2 (((cfg0.win 2).xinj (grid0.coords t) j) 0) k))
      = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 128 + 1 * k.val = k.val; rw [e1]; omega
  · show V c main_arg2 (((cfg0.win 1).blk t).view.emb (ix2 k (((cfg0.win 2).xinj (grid0.coords t) j) 1)))
      = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 128 + 1 * (j 1).val = win0_2.index t (1 : Fin 2) * 128 + 1 * (j 1).val; rw [e3, e5]

/-- An index of the result is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Row r of the result is covered by the point r / 5000. -/
theorem cover0 (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  refine ⟨⟨(i 0).val / 5000, by rw [hN]; omega⟩, flush0_2 _, ?_⟩
  rw [mem_block0]
  obtain ⟨-, -, -, -, e4, e5⟩ := index_maps0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The result array when region 0 is left: the product of the two arrays the region finds. -/
theorem region0_value : (dat0 V c).arrAt 2 cfg0.N = mm (V c main_arg0) (V c main_arg2) :=
  (dat0 V c).arrAt_eq_of_cover 2 (mm (V c main_arg0) (V c main_arg2)) (fun t _ => flushed0 V c t) (cover0)

end Cert.KernelIdeal.Hand

end
-- ==== Proof.Region1.lean ====
/-
  The first layer's bias and clamp: what the array main_v46 holds when region 1 is left, as one function of the arrays
  the region finds at its entry.

  The grid has ten points. Point t stages rows 5000 t … 5000 t + 4999 of the aggregated product [50000, 128] and the whole
  one-row bias [1, 128], adds the bias row to every row of the block, clamps every entry below at zero, and writes the
  [5000, 128] block back to rows 5000 t … 5000 t + 4999 of the result. Entry (p, q) of the block only reads entry (p, q)
  of the staged block, that is entry (5000 t + p, q) of the whole array, and entry (0, q) of the bias row: so what point t
  writes back is block t of the whole array with the bias added and clamped, and the ten blocks tile the result.
-/
import proofs.«167627_j28355374088749_1_alg».proof.Proof.Gen.KernelIdeal.Frame
import proofs.«167627_j28355374088749_1_alg».proof.Proof.Spec
import proofs.«167627_j28355374088749_1_alg».proof.Proof.Region0
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-- The block's entry (p, q): the staged entry (p, q) plus the bias row's entry q, clamped below at zero. The casts of a
    shape to itself are identities, and the one row broadcast over 5000 rows reads its entry q at every row. -/
theorem bias1_apply (v0 : FVec Ideal S1x128 .f32) (v4 : FVec Ideal S5000x128 .f32) (p : Fin 5000) (q : Fin 128) :
    k1_pay1 (F := Ideal) v0 v4 (ix2 p q) = max (v4 (ix2 p q) + v0 (ix2 (0 : Fin 1) q)) (Ideal.ofBits .f32 0x00000000#32) := by
  unfold k1_pay1
  rw [maximumf_apply, addf_apply, broadcast_apply, shapeCast_self, shapeCast_self, shapeCast_self]
  refine congrArg (fun z => max (v4 (ix2 p q) + z) _) ?_
  exact broadcastTo_1b_ab_apply v0 _ p q

/-- A block's entry is the whole result's entry, once the staged entry is the whole array's entry and the bias row is read
    at the same column. -/
theorem bias1_block (x1 : FVec Ideal S1x128 .f32) (x0 : FVec Ideal S5000x128 .f32)
    (A : FVec Ideal S50000x128 .f32) (B : FVec Ideal S1x128 .f32) (j : S5000x128.Idx) (i : S50000x128.Idx)
    (hx : x0 (ix2 (j 0) (j 1)) = A (ix2 (i 0) (i 1))) (hb : x1 (ix2 (0 : Fin 1) (j 1)) = B (ix2 (0 : Fin 1) (i 1))) :
    k1_pay1 (F := Ideal) x1 x0 j = relu (addRow A B) i := by
  refine (congrArg (k1_pay1 (F := Ideal) x1 x0) (eq_ix2 j)).trans ?_
  refine (bias1_apply x1 x0 (j 0) (j 1)).trans ?_
  refine Eq.trans ?_ (congrArg (relu (addRow A B)) (eq_ix2 i)).symm
  refine Eq.trans ?_ (relu_apply (addRow A B) (i 0) (i 1)).symm
  refine Eq.trans ?_ (congrArg (fun z => max z (Ideal.ofBits .f32 0x00000000#32)) (addRow_apply A B (i 0) (i 1))).symm
  exact congrArg (fun z => max z (Ideal.ofBits .f32 0x00000000#32)) (congrArg₂ (· + ·) hx hb)

variable (V : (c : Dev nD) → (b : Ref sig .tc) → Buf (Elt Ideal) ((c : Thread nD τ).loc b)) (c : Dev nD)

/-- The printed index maps over the grid: the aggregated product and the result move one block of rows per point, the
    bias row stays. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

set_option maxHeartbeats 1000000 in
/-- What point t writes back is block t of the whole array the region finds, with the bias row added and clamped. A
    block's coordinate on an axis is the block's index times the block's extent plus the coordinate inside the block. -/
theorem flushed1 (t : Fin cfg1.N) :
    (dat1 V c).flushed 2 t = ((cfg1.win 2).blk t).view.read (Elt Ideal) (relu (addRow (V c main_v44) (V c main_v45))) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_maps1 t
  funext j
  rw [View.read_apply]
  refine bias1_block (iblk1 V c 1 t) (iblk1 V c 0 t) (V c main_v44) (V c main_v45)
    ((cfg1.win 2).xinj (grid1.coords t) j) (((cfg1.win 2).blk t).view.emb j) ?_ ?_
  · show V c main_v44 (((cfg1.win 0).blk t).view.emb (ix2 (((cfg1.win 2).xinj (grid1.coords t) j) 0) (((cfg1.win 2).xinj (grid1.coords t) j) 1)))
      = V c main_v44 (ix2 ((((cfg1.win 2).blk t).view.emb j) 0) ((((cfg1.win 2).blk t).view.emb j) 1))
    refine congrArg (V c main_v44) (funext fun a => Fin.ext ?_)
    match a with
    | ⟨0, _⟩ => show win1_0.index t (0 : Fin 2) * 5000 + 1 * (j 0).val = win1_2.index t (0 : Fin 2) * 5000 + 1 * (j 0).val; rw [e0, e4]
    | ⟨1, _⟩ => show win1_0.index t (1 : Fin 2) * 128 + 1 * (j 1).val = win1_2.index t (1 : Fin 2) * 128 + 1 * (j 1).val; rw [e1, e5]
  · show V c main_v45 (((cfg1.win 1).blk t).view.emb (ix2 (0 : Fin 1) (((cfg1.win 2).xinj (grid1.coords t) j) 1)))
      = V c main_v45 (ix2 (0 : Fin 1) ((((cfg1.win 2).blk t).view.emb j) 1))
    refine congrArg (V c main_v45) (funext fun a => Fin.ext ?_)
    match a with
    | ⟨0, _⟩ => show win1_1.index t (0 : Fin 2) * 1 + 1 * 0 = 0; rw [e2]
    | ⟨1, _⟩ => show win1_1.index t (1 : Fin 2) * 128 + 1 * (j 1).val = win1_2.index t (1 : Fin 2) * 128 + 1 * (j 1).val; rw [e3, e5]

/-- An index of the result is in point t's block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Row r of the result is covered by the point r / 5000. -/
theorem cover1 (i : S50000x128.Idx) : ∃ t : Fin cfg1.N, (cfg1.win 2).flush t = true ∧ i ∈ ((cfg1.win 2).blk t).view.set := by
  have hN : cfg1.N = 10 := N_1
  have hi0 : (i 0).val < 50000 := (i 0).isLt
  have hi1 : (i 1).val < 128 := (i 1).isLt
  refine ⟨⟨(i 0).val / 5000, by rw [hN]; omega⟩, flush1_2 _, ?_⟩
  rw [mem_block1]
  obtain ⟨-, -, -, -, e4, e5⟩ := index_maps1 ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- The result array when region 1 is left: the aggregated product the region finds, with the bias row added to every
    row and every entry clamped below at zero. -/
theorem region1_value : (dat1 V c).arrAt 2 cfg1.N = relu (addRow (V c main_v44) (V c main_v45)) :=
  (dat1 V c).arrAt_eq_of_cover 2 (relu (addRow (V c main_v44) (V c main_v45))) (fun t _ => flushed1 V c t) (cover1)

end Cert.KernelIdeal.Hand

end
-- ==== Proof.Region2.lean ====
/-
  The second product: what the array main_v47 holds when region 2 is left, as one function of the arrays the region
  finds at its entry.

  The grid has ten points. Point t stages rows 5000 t … 5000 t + 4999 of the left operand [50000, 128] (the first layer's
  output) and the whole right operand [128, 2], multiplies them into a zero accumulator (the changes of float format on
  the way in are the identity over the extended reals), and writes the [5000, 2] product back to rows
  5000 t … 5000 t + 4999 of the result. Entry (p, q) of the block's product only reads row p of the block, which is row
  5000 t + p of the whole left operand: what point t writes back is block t of the whole-array product, and the ten
  blocks tile the result.
-/
import proofs.«167627_j28355374088749_1_alg».proof.Proof.Gen.KernelIdeal.Frame
import proofs.«167627_j28355374088749_1_alg».proof.Proof.Spec
import proofs.«167627_j28355374088749_1_alg».proof.Proof.LibDense
import proofs.«167627_j28355374088749_1_alg».proof.Proof.Region0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-- The block product at (p, q): the sum over k of the left block's row p times the right operand's column q. -/
theorem product2_apply (x0 : FVec Ideal S5000x128 .f32) (x1 : FVec Ideal S128x2 .f32) (p : Fin 5000) (q : Fin 2) :
    k2_pay1 (F := Ideal) x0 x1 (ix2 p q) = ∑ k : Fin 128, x0 (ix2 p k) * x1 (ix2 k q) := by
  unfold k2_pay1
  rw [shapeCast_self]
  exact Cert.Dense.matmul_rows dot_S5000x128_S128x2_S5000x2_1_0_0_1_n_n rfl rfl (fun _ _ => rfl) (fun _ _ => rfl)
    (fun _ _ => rfl) (fun _ _ => rfl) x0 x1 p q

/-- A block's product entry is the whole product's entry, once the block's row is the whole operand's row and the right
    operand's column is the whole right operand's column. -/
theorem product2_block (x0 : FVec Ideal S5000x128 .f32) (x1 : FVec Ideal S128x2 .f32)
    (A : FVec Ideal S50000x128 .f32) (B : FVec Ideal S128x2 .f32) (j : S5000x2.Idx) (i : S50000x2.Idx)
    (hx : ∀ k : Fin 128, x0 (ix2 (j 0) k) = A (ix2 (i 0) k)) (hw : ∀ k : Fin 128, x1 (ix2 k (j 1)) = B (ix2 k (i 1))) :
    k2_pay1 (F := Ideal) x0 x1 j = mm A B i := by
  refine (congrArg (k2_pay1 (F := Ideal) x0 x1) (eq_ix2 j)).trans ?_
  refine (product2_apply x0 x1 (j 0) (j 1)).trans ?_
  refine Eq.trans ?_ (congrArg (mm A B) (eq_ix2 i)).symm
  refine Eq.trans ?_ (mm_apply A B (i 0) (i 1)).symm
  exact Finset.sum_congr rfl fun k _ => congrArg₂ (· * ·) (hx k) (hw k)

variable (V : (c : Dev nD) → (b : Ref sig .tc) → Buf (Elt Ideal) ((c : Thread nD τ).loc b)) (c : Dev nD)

/-- The printed index maps over the grid: the left operand and the result move one block of rows per point, the right
    operand stays. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 1000000 in
/-- What point t writes back is block t of the whole product of the arrays the region finds. -/
theorem flushed2 (t : Fin cfg2.N) :
    (dat2 V c).flushed 2 t = ((cfg2.win 2).blk t).view.read (Elt Ideal) (mm (V c main_v46) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x2) zero_offsets]
  obtain ⟨e0, e1, e2, e3, e4, e5⟩ := index_maps2 t
  funext j
  rw [View.read_apply]
  refine product2_block (iblk2 V c 0 t) (iblk2 V c 1 t) (V c main_v46) (V c main_arg4)
    ((cfg2.win 2).xinj (grid2.coords t) j) (((cfg2.win 2).blk t).view.emb j) (fun k => ?_) (fun k => ?_)
  · show V c main_v46 (((cfg2.win 0).blk t).view.emb (ix2 (((cfg2.win 2).xinj (grid2.coords t) j) 0) k))
      = V c main_v46 (ix2 ((((cfg2.win 2).blk t).view.emb j) 0) k)
    refine congrArg (V c main_v46) (funext fun a => Fin.ext ?_)
    match a with
    | ⟨0, _⟩ => show win2_0.index t (0 : Fin 2) * 5000 + 1 * (j 0).val = win2_2.index t (0 : Fin 2) * 5000 + 1 * (j 0).val; rw [e0, e4]
    | ⟨1, _⟩ => show win2_0.index t (1 : Fin 2) * 128 + 1 * k.val = k.val; rw [e1]; omega
  · show V c main_arg4 (((cfg2.win 1).blk t).view.emb (ix2 k (((cfg2.win 2).xinj (grid2.coords t) j) 1)))
      = V c main_arg4 (ix2 k ((((cfg2.win 2).blk t).view.emb j) 1))
    refine congrArg (V c main_arg4) (funext fun a => Fin.ext ?_)
    match a with
    | ⟨0, _⟩ => show win2_1.index t (0 : Fin 2) * 128 + 1 * k.val = k.val; rw [e2]; omega
    | ⟨1, _⟩ => show win2_1.index t (1 : Fin 2) * 2 + 1 * (j 1).val = win2_2.index t (1 : Fin 2) * 2 + 1 * (j 1).val; rw [e3, e5]

/-- An index of the result is in point t's block iff each coordinate is in the block's range on its axis. -/
theorem mem_block2 (t : Fin cfg2.N) (i : S50000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v47).slice (win2_2.rect t)).set ↔ _
  rw [View.set_slice_whole, Rect.mem_set_unit]
  exact Iff.rfl

/-- Row r of the result is covered by the point r / 5000. -/
theorem cover2 (i : S50000x2.Idx) : ∃ t : Fin cfg2.N, (cfg2.win 2).flush t = true ∧ i ∈ ((cfg2.win 2).blk t).view.set := by
  have hN : cfg2.N = 10 := N_2
  have hi0 : (i 0).val < 50000 := (i 0).isLt
  have hi1 : (i 1).val < 2 := (i 1).isLt
  refine ⟨⟨(i 0).val / 5000, by rw [hN]; omega⟩, flush2_2 _, ?_⟩
  rw [mem_block2]
  obtain ⟨-, -, -, -, e4, e5⟩ := index_maps2 ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 2 ≤ (i 1).val ∧ (i 1).val < win2_2.index _ (1 : Fin 2) * 2 + 2
    rw [e5]; omega

/-- The result array when region 0 is left: the product of the two arrays the region finds. -/
theorem region2_value : (dat2 V c).arrAt 2 cfg2.N = mm (V c main_v46) (V c main_arg4) :=
  (dat2 V c).arrAt_eq_of_cover 2 (mm (V c main_v46) (V c main_arg4)) (fun t _ => flushed2 V c t) (cover2)

end Cert.KernelIdeal.Hand

end
-- ==== Proof.Region3.lean ====
/-
  The second layer's bias: what the array main_v62 holds when region 3 is left, as one function of the arrays the
  region finds at its entry.

  The grid has ten points. Point t stages rows 5000 t … 5000 t + 4999 of the aggregated product [50000, 2] and the whole
  one-row bias [1, 2], adds the bias row to every row of the block, and writes the [5000, 2] block back to rows
  5000 t … 5000 t + 4999 of the result. Entry (p, q) of the block only reads entry (p, q) of the staged block, that is
  entry (5000 t + p, q) of the whole array, and entry (0, q) of the bias row: so what point t writes back is block t of the
  whole array with the bias added, and the ten blocks tile the result.
-/
import proofs.«167627_j28355374088749_1_alg».proof.Proof.Gen.KernelIdeal.Frame
import proofs.«167627_j28355374088749_1_alg».proof.Proof.Spec
import proofs.«167627_j28355374088749_1_alg».proof.Proof.Region0
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Gcn

/-- The block's entry (p, q): the staged entry (p, q) plus the bias row's entry q. The casts of a shape to itself are
    identities, and the one row broadcast over 5000 rows reads its entry q at every row. -/
theorem bias3_apply (v0 : FVec Ideal S1x2 .f32) (v4 : FVec Ideal S5000x2 .f32) (p : Fin 5000) (q : Fin 2) :
    k3_pay1 (F := Ideal) v0 v4 (ix2 p q) = v4 (ix2 p q) + v0 (ix2 (0 : Fin 1) q) := by
  unfold k3_pay1
  rw [addf_apply, shapeCast_self, shapeCast_self, shapeCast_self]
  refine congrArg (fun z => v4 (ix2 p q) + z) ?_
  exact broadcastTo_1b_ab_apply v0 _ p q

/-- A block's entry is the whole result's entry, once the staged entry is the whole array's entry and the bias row is read
    at the same column. -/
theorem bias3_block (x1 : FVec Ideal S1x2 .f32) (x0 : FVec Ideal S5000x2 .f32)
    (A : FVec Ideal S50000x2 .f32) (B : FVec Ideal S1x2 .f32) (j : S5000x2.Idx) (i : S50000x2.Idx)
    (hx : x0 (ix2 (j 0) (j 1)) = A (ix2 (i 0) (i 1))) (hb : x1 (ix2 (0 : Fin 1) (j 1)) = B (ix2 (0 : Fin 1) (i 1))) :
    k3_pay1 (F := Ideal) x1 x0 j = addRow A B i := by
  refine (congrArg (k3_pay1 (F := Ideal) x1 x0) (eq_ix2 j)).trans ?_
  refine (bias3_apply x1 x0 (j 0) (j 1)).trans ?_
  refine Eq.trans ?_ (congrArg (addRow A B) (eq_ix2 i)).symm
  refine Eq.trans ?_ (addRow_apply A B (i 0) (i 1)).symm
  exact congrArg₂ (· + ·) hx hb

variable (V : (c : Dev nD) → (b : Ref sig .tc) → Buf (Elt Ideal) ((c : Thread nD τ).loc b)) (c : Dev nD)

/-- The printed index maps over the grid: the aggregated product and the result move one block of rows per point, the
    bias row stays. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

set_option maxHeartbeats 1000000 in
/-- What point t writes back is block t of the whole array the region finds, with the bias row added. A
    block's coordinate on an axis is the block's index times the block's extent plus the coordinate inside the block. -/
theorem flushed3 (t : Fin cfg3.N) :
    (dat3 V c).flushed 2 t = ((cfg3.win 2).blk t).view.read (Elt Ideal) (addRow (V c main_v60) (V c main_v61)) := by
  show (cfg3.win 2).cut (grid3.coords t) ((dat3 V c).after 2 t) = _
  rw [after3_2]
  unfold out3_2
  rw [View.canon_unit_zero zero_offsets]
  simp only [View.ld_unit_zero (S := S5000x2) zero_offsets, View.ld_unit_zero (S := S1x2) zero_offsets]
  obtain ⟨e0, e1, e2, e3, e4, e5⟩ := index_maps3 t
  funext j
  rw [View.read_apply]
  refine bias3_block (iblk3 V c 1 t) (iblk3 V c 0 t) (V c main_v60) (V c main_v61)
    ((cfg3.win 2).xinj (grid3.coords t) j) (((cfg3.win 2).blk t).view.emb j) ?_ ?_
  · show V c main_v60 (((cfg3.win 0).blk t).view.emb (ix2 (((cfg3.win 2).xinj (grid3.coords t) j) 0) (((cfg3.win 2).xinj (grid3.coords t) j) 1)))
      = V c main_v60 (ix2 ((((cfg3.win 2).blk t).view.emb j) 0) ((((cfg3.win 2).blk t).view.emb j) 1))
    refine congrArg (V c main_v60) (funext fun a => Fin.ext ?_)
    match a with
    | ⟨0, _⟩ => show win3_0.index t (0 : Fin 2) * 5000 + 1 * (j 0).val = win3_2.index t (0 : Fin 2) * 5000 + 1 * (j 0).val; rw [e0, e4]
    | ⟨1, _⟩ => show win3_0.index t (1 : Fin 2) * 2 + 1 * (j 1).val = win3_2.index t (1 : Fin 2) * 2 + 1 * (j 1).val; rw [e1, e5]
  · show V c main_v61 (((cfg3.win 1).blk t).view.emb (ix2 (0 : Fin 1) (((cfg3.win 2).xinj (grid3.coords t) j) 1)))
      = V c main_v61 (ix2 (0 : Fin 1) ((((cfg3.win 2).blk t).view.emb j) 1))
    refine congrArg (V c main_v61) (funext fun a => Fin.ext ?_)
    match a with
    | ⟨0, _⟩ => show win3_1.index t (0 : Fin 2) * 1 + 1 * 0 = 0; rw [e2]
    | ⟨1, _⟩ => show win3_1.index t (1 : Fin 2) * 2 + 1 * (j 1).val = win3_2.index t (1 : Fin 2) * 2 + 1 * (j 1).val; rw [e3, e5]

/-- An index of the result is in point t's block iff each coordinate is in the block's range on its axis. -/
theorem mem_block3 (t : Fin cfg3.N) (i : S50000x2.Idx) :
    i ∈ ((cfg3.win 2).blk t).view.set ↔ ∀ a : Fin 2, win3_2.index t a * S5000x2.size a ≤ (i a).val ∧ (i a).val < win3_2.index t a * S5000x2.size a + S5000x2.size a := by
  show i ∈ ((View.whole main_v62).slice (win3_2.rect t)).set ↔ _
  rw [View.set_slice_whole, Rect.mem_set_unit]
  exact Iff.rfl

/-- Row r of the result is covered by the point r / 5000. -/
theorem cover3 (i : S50000x2.Idx) : ∃ t : Fin cfg3.N, (cfg3.win 2).flush t = true ∧ i ∈ ((cfg3.win 2).blk t).view.set := by
  have hN : cfg3.N = 10 := N_3
  have hi0 : (i 0).val < 50000 := (i 0).isLt
  have hi1 : (i 1).val < 2 := (i 1).isLt
  refine ⟨⟨(i 0).val / 5000, by rw [hN]; omega⟩, flush3_2 _, ?_⟩
  rw [mem_block3]
  obtain ⟨-, -, -, -, e4, e5⟩ := index_maps3 ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 2 ≤ (i 1).val ∧ (i 1).val < win3_2.index _ (1 : Fin 2) * 2 + 2
    rw [e5]; omega

/-- The result array when region 3 is left: the aggregated product the region finds, with the bias row added to every
    row. -/
theorem region3_value : (dat3 V c).arrAt 2 cfg3.N = addRow (V c main_v60) (V c main_v61) :=
  (dat3 V c).arrAt_eq_of_cover 2 (addRow (V c main_v60) (V c main_v61)) (fun t _ => flushed3 V c t) (cover3)

end Cert.KernelIdeal.Hand

end
-- ==== Proof.KValue.lean ====
/-
  The idealized kernel program's result is the network function of the launch arguments.

  Going through the segments in order: the first region finds the arguments x and W1 as launched and leaves their
  product; the stretch after it aggregates that product over the pairs and views the first bias as one row; the second
  region adds the bias row to every row and clamps at zero; the third region multiplies by W2 (which it still finds as
  launched); the last stretch aggregates again and views the second bias as one row; the last region adds it. Each step
  is one of the regions' value lemmas at the contents the region is entered with, followed by the chain lemmas that read
  those contents back to the launch memory.
-/
import proofs.«167627_j28355374088749_1_alg».proof.Proof.Chain
import proofs.«167627_j28355374088749_1_alg».proof.Proof.Region0
import proofs.«167627_j28355374088749_1_alg».proof.Proof.Region1
import proofs.«167627_j28355374088749_1_alg».proof.Proof.Region2
import proofs.«167627_j28355374088749_1_alg».proof.Proof.Region3

noncomputable section

namespace Cert.KernelIdeal.Hand

open Idealize.ShloMosaic Idealize.ShloMosaic.TcCoe Idealize.SL.Sem
open Cert.KernelIdeal Cert.KernelIdeal.Gen Cert.Gcn

variable (m : (ℓ : Loc nD τ sig) → Buf (Elt Ideal) ℓ) (ρ : Dev nD → PrngReg) (c : Dev nD)

/-- After the first region: the product of x and W1. -/
theorem W4_v31 : W4 m ρ c (Proc.devRef .tc main_v31)
    = mm (m ((c : Thread nD τ).loc main_arg0)) (m ((c : Thread nD τ).loc main_arg2)) := by
  refine (W4_arr m ρ c 2).trans ?_
  rw [region0_value (V3 m ρ) c]
  show mm (W3 m ρ c (Proc.devRef .tc main_arg0)) (W3 m ρ c (Proc.devRef .tc main_arg2)) = _
  rw [W3_arg0, W3_arg2]

/-- After the second region: the first layer's output. -/
theorem W6_v46 : W6 m ρ c (Proc.devRef .tc main_v46)
    = relu (addRow (agg128 (srcOf (m ((c : Thread nD τ).loc main_arg1))) (dstOf (m ((c : Thread nD τ).loc main_arg1)))
          (normOf (srcOf (m ((c : Thread nD τ).loc main_arg1))) (dstOf (m ((c : Thread nD τ).loc main_arg1))))
          (mm (m ((c : Thread nD τ).loc main_arg0)) (m ((c : Thread nD τ).loc main_arg2))))
        (shapeCast S1x128 (m ((c : Thread nD τ).loc main_arg3)) Facts₀.shapeCasts_S128_S1x128)) := by
  refine (W6_arr m ρ c 2).trans ?_
  rw [region1_value (V5 m ρ) c]
  show relu (addRow (W5 m ρ c (Proc.devRef .tc main_v44)) (W5 m ρ c (Proc.devRef .tc main_v45))) = _
  rw [W5_v44, W5_v45, W4_v31]

/-- After the third region: the first layer's output times W2. -/
theorem W7_v47 : W7 m ρ c (Proc.devRef .tc main_v47)
    = mm (relu (addRow (agg128 (srcOf (m ((c : Thread nD τ).loc main_arg1))) (dstOf (m ((c : Thread nD τ).loc main_arg1)))
          (normOf (srcOf (m ((c : Thread nD τ).loc main_arg1))) (dstOf (m ((c : Thread nD τ).loc main_arg1))))
          (mm (m ((c : Thread nD τ).loc main_arg0)) (m ((c : Thread nD τ).loc main_arg2))))
        (shapeCast S1x128 (m ((c : Thread nD τ).loc main_arg3)) Facts₀.shapeCasts_S128_S1x128)))
      (m ((c : Thread nD τ).loc main_arg4)) := by
  refine (W7_arr m ρ c 2).trans ?_
  rw [region2_value (V6 m ρ) c]
  show mm (W6 m ρ c (Proc.devRef .tc main_v46)) (W6 m ρ c (Proc.devRef .tc main_arg4)) = _
  rw [W6_v46, W6_arg4]

/-- After the last region: the network function of the six arguments as launched, the biases viewed as one-row arrays. -/
theorem W9_v62 : W9 m ρ c (Proc.devRef .tc main_v62)
    = gcn (m ((c : Thread nD τ).loc main_arg0)) (m ((c : Thread nD τ).loc main_arg1)) (m ((c : Thread nD τ).loc main_arg2))
        (shapeCast S1x128 (m ((c : Thread nD τ).loc main_arg3)) Facts₀.shapeCasts_S128_S1x128)
        (m ((c : Thread nD τ).loc main_arg4))
        (shapeCast S1x2 (m ((c : Thread nD τ).loc main_arg5)) Facts₀.shapeCasts_S2_S1x2) := by
  refine (W9_arr m ρ c 2).trans ?_
  rw [region3_value (V8 m ρ) c]
  show addRow (W8 m ρ c (Proc.devRef .tc main_v60)) (W8 m ρ c (Proc.devRef .tc main_v61)) = _
  rw [W8_v60, W8_v61, W7_v47]
  rfl

end Cert.KernelIdeal.Hand

end
-- ==== Proof.lean ====
/-
  The certificate: a two-layer graph network computed with kernel regions for its dense parts equals, over the extended
  reals, the plain host computation.

  Both programs build the same 650000 (source, destination) pairs from the edge list (every node also joined to itself),
  the same pair weights dinv(source) · dinv(destination) from the in-degrees, and aggregate with the same host
  operations. They differ in the dense parts only: the kernel program multiplies by W1 and by W2 in blocks of 5000 rows
  inside kernel regions (passing the operands through a narrower float format, which is the identity over the extended
  reals) and adds the bias, viewed as one row, inside further regions (clamping at zero after the first layer); the
  reference uses one dot_general per layer, a bias spread over the rows, and a maximum with zero. Entry (p, q) of a
  product only reads row p of the left operand, so the blocks of the blockwise product are the blocks of the whole
  product; a bias row added to every row and a bias spread over the rows add the same b q to entry (p, q). No law of
  arithmetic beyond reading these operations at an index is used, so the precondition (finite inputs) is never opened.
  The three frames: the two kernel programs' are generated whole; the reference's is its run with the result dropped.
  The idealization rewrote no operation, so there is nothing to preserve beyond the program text.
-/
import proofs.«167627_j28355374088749_1_alg».proof.Defs
import proofs.«167627_j28355374088749_1_alg».proof.Proof.Gen.Kernel
import proofs.«167627_j28355374088749_1_alg».proof.Proof.Gen.Kernel.Frame
import proofs.«167627_j28355374088749_1_alg».proof.Proof.Gen.KernelIdeal
import proofs.«167627_j28355374088749_1_alg».proof.Proof.Gen.KernelIdeal.Frame
import proofs.«167627_j28355374088749_1_alg».proof.Proof.Gen.ReferenceIdeal
import proofs.«167627_j28355374088749_1_alg».proof.Proof.Gen.Pre_finite_inputs
import proofs.«167627_j28355374088749_1_alg».proof.Proof.RefRun
import proofs.«167627_j28355374088749_1_alg».proof.Proof.RefValue
import proofs.«167627_j28355374088749_1_alg».proof.Proof.KRun
import proofs.«167627_j28355374088749_1_alg».proof.Proof.KValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the network function of the six arguments in their result buffer; the arguments agree. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (shapeCast Cert.KernelIdeal.S1x128 (m ((c.tc : Thread Cert.KernelIdeal.nD Cert.KernelIdeal.τ).loc Cert.KernelIdeal.main_arg3)) Cert.KernelIdeal.Facts₀.shapeCasts_S128_S1x128)
      (m ((c.tc : Thread Cert.KernelIdeal.nD Cert.KernelIdeal.τ).loc Cert.KernelIdeal.main_arg4))
      (shapeCast Cert.KernelIdeal.S1x2 (m ((c.tc : Thread Cert.KernelIdeal.nD Cert.KernelIdeal.τ).loc Cert.KernelIdeal.main_arg5)) Cert.KernelIdeal.Facts₀.shapeCasts_S2_S1x2), ?_, ?_⟩
  · exact (θ_run Cert.KernelIdeal.defs _ _).mono (fun _ h c => ⟨(h c).1.trans (Cert.KernelIdeal.Hand.W9_v62 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Hand.res_eq_refTerm, Cert.ReferenceIdeal.Hand.refTerm_eq_gcn,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
